-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x350000 : Shape := ⟨2, ![2, 350000]⟩
abbrev S350000 : Shape := ⟨1, ![350000]⟩
abbrev S1792x256 : Shape := ⟨2, ![1792, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1792x256 : S_.BroadcastsInDim S1792x256 (![] : Fin 0 → Fin S1792x256.rank)
  reducesTo_S1792x256_S_d0_1 : S1792x256.ReducesTo [0, 1] S_

variable [Facts]

def fn {F : FTy → Type} [FloatOps F] (main_arg0 : FVec F S50000x256 .f32) (main_arg1 : IVec S2x350000 32) (main_arg2 : IVec S350000 32) (main_arg3 : FVec F S1792x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1792x256 .f32 := Host.absf main_arg3
  let main_cst_0 : FVec F S_ .f32 := constant S_ .f32 0x7F800000#32
  let main_v5 : FVec F S1792x256 .f32 := broadcastInDim S1792x256 ![] bcast_S_S1792x256 main_cst_0
  let main_v6 : IVec S1792x256 1 := cmpf .olt main_v4 main_v5
  let main_c_1 : IVec S_ 1 := constantI S_ 1 1#1
  let main_v7 : IVec S_ 1 := (fun x v => Host.reduce IntOp.andi x v reducesTo_S1792x256_S_d0_1 h_S_) main_v6 main_c_1
  let main_v8 : IVec S_ 1 := andi main_v3 main_v7
  main_v8
-- ==== Kernel.lean ====
abbrev S50000x256 : Shape := ⟨2, ![50000, 256]⟩
abbrev S2x350000 : Shape := ⟨2, ![2, 350000]⟩
abbrev S350000 : Shape := ⟨1, ![350000]⟩
abbrev S1792x256 : Shape := ⟨2, ![1792, 256]⟩
abbrev S1x350000 : Shape := ⟨2, ![1, 350000]⟩
abbrev S_ : Shape := ⟨0, ![]⟩
abbrev S350000x1 : Shape := ⟨2, ![350000, 1]⟩
abbrev S350000x256 : Shape := ⟨2, ![350000, 256]⟩
abbrev S50000x1792 : Shape := ⟨2, ![50000, 1792]⟩
abbrev S2000x1792 : Shape := ⟨2, ![2000, 1792]⟩
abbrev S2000x256 : Shape := ⟨2, ![2000, 256]⟩

abbrev nBuf : Space → Nat
  | .hbm => 41
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S2x350000, .i32⟩
  | .hbm, ⟨2, _⟩ => ⟨S350000, .i32⟩
  | .hbm, ⟨3, _⟩ => ⟨S1792x256, .f32⟩
  | .hbm, ⟨4, _⟩ => ⟨S1x350000, .i32⟩
  | .hbm, ⟨5, _⟩ => ⟨S350000, .i32⟩
  | .hbm, ⟨6, _⟩ => ⟨S1x350000, .i32⟩
  | .hbm, ⟨7, _⟩ => ⟨S350000, .i32⟩
  | .hbm, ⟨8, _⟩ => ⟨S_, .i32⟩
  | .hbm, ⟨9, _⟩ => ⟨S350000, .i32⟩
  | .hbm, ⟨10, _⟩ => ⟨S350000, .i32⟩
  | .hbm, ⟨11, _⟩ => ⟨S350000, .i32⟩
  | .hbm, ⟨12, _⟩ => ⟨S_, .i32⟩
  | .hbm, ⟨13, _⟩ => ⟨S350000, .i32⟩
  | .hbm, ⟨14, _⟩ => ⟨S350000, .i1⟩
  | .hbm, ⟨15, _⟩ => ⟨S_, .i32⟩
  | .hbm, ⟨16, _⟩ => ⟨S350000, .i32⟩
  | .hbm, ⟨17, _⟩ => ⟨S350000, .i32⟩
  | .hbm, ⟨18, _⟩ => ⟨S350000, .i32⟩
  | .hbm, ⟨19, _⟩ => ⟨S350000x1, .i32⟩
  | .hbm, ⟨20, _⟩ => ⟨S350000x256, .f32⟩
  | .hbm, ⟨21, _⟩ => ⟨S_, .f32⟩
  | .hbm, ⟨22, _⟩ => ⟨S350000x256, .f32⟩
  | .hbm, ⟨23, _⟩ => ⟨S350000x1, .i32⟩
  | .hbm, ⟨24, _⟩ => ⟨S350000x256, .f32⟩
  | .hbm, ⟨25, _⟩ => ⟨S_, .f32⟩
  | .hbm, ⟨26, _⟩ => ⟨S350000, .f32⟩
  | .hbm, ⟨27, _⟩ => ⟨S_, .f32⟩
  | .hbm, ⟨28, _⟩ => ⟨S350000, .f32⟩
  | .hbm, ⟨29, _⟩ => ⟨S350000x1, .i32⟩
  | .hbm, ⟨30, _⟩ => ⟨S350000, .f32⟩
  | .hbm, ⟨31, _⟩ => ⟨S_, .f32⟩
  | .hbm, ⟨32, _⟩ => ⟨S350000, .f32⟩
  | .hbm, ⟨33, _⟩ => ⟨S350000, .f32⟩
  | .hbm, ⟨34, _⟩ => ⟨S350000x1, .f32⟩
  | .hbm, ⟨35, _⟩ => ⟨S350000x256, .f32⟩
  | .hbm, ⟨36, _⟩ => ⟨S350000x256, .f32⟩
  | .hbm, ⟨37, _⟩ => ⟨S50000x1792, .f32⟩
  | .hbm, ⟨38, _⟩ => ⟨S50000x1792, .bf16⟩
  | .hbm, ⟨39, _⟩ => ⟨S1792x256, .bf16⟩
  | .hbm, ⟨40, _⟩ => ⟨S50000x256, .f32⟩
  | .local _ .vmem, ⟨0, _⟩ => ⟨S2000x1792, .bf16⟩
  | .local _ .vmem, ⟨1, _⟩ => ⟨S2000x1792, .bf16⟩
  | .local _ .vmem, ⟨2, _⟩ => ⟨S1792x256, .bf16⟩
  | .local _ .vmem, ⟨3, _⟩ => ⟨S2000x256, .f32⟩
  | .local _ .vmem, ⟨4, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x350000_S1x350000_0_0 : S2x350000.Slices ![0, 0] S1x350000
  shapeCasts_S1x350000_S350000 : S1x350000.ShapeCasts S350000
  slices_S2x350000_S1x350000_1_0 : S2x350000.Slices ![1, 0] S1x350000
  bcast_S_S350000 : S_.BroadcastsInDim S350000 (![] : Fin 0 → Fin S350000.rank)
  bcast_S350000_S350000x1_0 : S350000.BroadcastsInDim S350000x1 (![0] : Fin 1 → Fin S350000x1.rank)
  bcast_S_S350000x256 : S_.BroadcastsInDim S350000x256 (![] : Fin 0 → Fin S350000x256.rank)
  bcast_S350000x1_S350000x256_0_1 : S350000x1.BroadcastsInDim S350000x256 (![0, 1] : Fin 2 → Fin S350000x256.rank)
  shapeCasts_S350000x256_S50000x1792 : S350000x256.ShapeCasts S50000x1792
  bitsLt_bf16_f32 : FTy.bits .bf16 < FTy.bits .f32
  inb_S2000x1792_S2000x1792_0_0 : ∀ a, (![0, 0] : Fin 2 → Nat) a + S2000x1792.size a ≤ S2000x1792.size a
  h_S2000x1792 : 0 < S2000x1792.numel
  shapeCasts_S2000x1792_S2000x1792 : S2000x1792.ShapeCasts S2000x1792
  inb_S1792x256_S1792x256_0_0 : ∀ a, (![0, 0] : Fin 2 → Nat) a + S1792x256.size a ≤ S1792x256.size a
  h_S1792x256 : 0 < S1792x256.numel
  shapeCasts_S1792x256_S1792x256 : S1792x256.ShapeCasts S1792x256
  inb_S2000x256_S2000x256_0_0 : ∀ a, (![0, 0] : Fin 2 → Nat) a + S2000x256.size a ≤ S2000x256.size a
  h_S2000x256 : 0 < S2000x256.numel
  gather_S50000x256_S350000x1_S350000x256_1_0_n_n_0_1_1256_wf : GatherDims.WF S50000x256 S350000x1 S350000x256 [1] [0] [] [0] [] 1 ![1, 256]
  scatter_S350000x256_S350000x1_S350000x256_1_0_0_1_wf : ScatterDims.WF S350000x256 S350000x1 S350000x256 [1] [0] [0] 1
  scatter_S350000_S350000x1_S350000_n_0_0_1_wf : ScatterDims.WF S350000 S350000x1 S350000 [] [0] [0] 1
  dot_S2000x1792_S1792x256_S2000x256_1_0_0_1_n_n_wf : DotDims.WF S2000x1792 S1792x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1792.size a ≤ S50000x1792.size a
  hwx0_0 : ∀ i : grid0.Coords, EltTy.bits .bf16 = 32 ∨ (Rect.block (s := S50000x1792) S2000x1792.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1792x256.size a ≤ S1792x256.size a
  hwx0_1 : ∀ i : grid0.Coords, EltTy.bits .bf16 = 32 ∨ (Rect.block (s := S1792x256) S1792x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)

variable [Facts₀]

def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S350000x256_S350000x1_S350000x256_1_0_0_1 : ScatterDims S350000x256 S350000x1 S350000x256 where
  updateWindowDims := [1]
  insertedWindowDims := [0]
  scatterDimsToOperandDims := [0]
  indexVectorDim := 1
  wf := scatter_S350000x256_S350000x1_S350000x256_1_0_0_1_wf
def scatter_S350000_S350000x1_S350000_n_0_0_1 : ScatterDims S350000 S350000x1 S350000 where
  updateWindowDims := []
  insertedWindowDims := [0]
  scatterDimsToOperandDims := [0]
  indexVectorDim := 1
  wf := scatter_S350000_S350000x1_S350000_n_0_0_1_wf
def dot_S2000x1792_S1792x256_S2000x256_1_0_0_1_n_n : DotDims S2000x1792 S1792x256 S2000x256 where
  lhsContracting := [1]
  rhsContracting := [0]
  lhsNonContracting := [0]
  rhsNonContracting := [1]
  lhsBatch := []
  rhsBatch := []
  wf := dot_S2000x1792_S1792x256_S2000x256_1_0_0_1_n_n_wf

abbrev win0_0 : Pipeline.Window sig grid0 :=
  Pipeline.Window.ofSpec (Memref.whole main_v27) S2000x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1792x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x350000 : Shape := ⟨2, ![2, 350000]⟩
abbrev S350000 : Shape := ⟨1, ![350000]⟩
abbrev S1792x256 : Shape := ⟨2, ![1792, 256]⟩
abbrev S1x350000 : Shape := ⟨2, ![1, 350000]⟩
abbrev S_ : Shape := ⟨0, ![]⟩
abbrev S350000x1 : Shape := ⟨2, ![350000, 1]⟩
abbrev S350000x256 : Shape := ⟨2, ![350000, 256]⟩
abbrev S50000x1792 : Shape := ⟨2, ![50000, 1792]⟩

abbrev nBuf : Space → Nat
  | .hbm => 39
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x350000, .i32⟩
  | .hbm, ⟨2, _⟩ => ⟨S350000, .i32⟩
  | .hbm, ⟨3, _⟩ => ⟨S1792x256, .f32⟩
  | .hbm, ⟨4, _⟩ => ⟨S1x350000, .i32⟩
  | .hbm, ⟨5, _⟩ => ⟨S350000, .i32⟩
  | .hbm, ⟨6, _⟩ => ⟨S1x350000, .i32⟩
  | .hbm, ⟨7, _⟩ => ⟨S350000, .i32⟩
  | .hbm, ⟨8, _⟩ => ⟨S_, .i32⟩
  | .hbm, ⟨9, _⟩ => ⟨S350000, .i32⟩
  | .hbm, ⟨10, _⟩ => ⟨S350000, .i32⟩
  | .hbm, ⟨11, _⟩ => ⟨S350000, .i32⟩
  | .hbm, ⟨12, _⟩ => ⟨S_, .i32⟩
  | .hbm, ⟨13, _⟩ => ⟨S350000, .i32⟩
  | .hbm, ⟨14, _⟩ => ⟨S350000, .i1⟩
  | .hbm, ⟨15, _⟩ => ⟨S_, .i32⟩
  | .hbm, ⟨16, _⟩ => ⟨S350000, .i32⟩
  | .hbm, ⟨17, _⟩ => ⟨S350000, .i32⟩
  | .hbm, ⟨18, _⟩ => ⟨S350000, .i32⟩
  | .hbm, ⟨19, _⟩ => ⟨S350000x1, .i32⟩
  | .hbm, ⟨20, _⟩ => ⟨S350000x256, .f32⟩
  | .hbm, ⟨21, _⟩ => ⟨S_, .f32⟩
  | .hbm, ⟨22, _⟩ => ⟨S350000x256, .f32⟩
  | .hbm, ⟨23, _⟩ => ⟨S350000x1, .i32⟩
  | .hbm, ⟨24, _⟩ => ⟨S350000x256, .f32⟩
  | .hbm, ⟨25, _⟩ => ⟨S_, .f32⟩
  | .hbm, ⟨26, _⟩ => ⟨S350000, .f32⟩
  | .hbm, ⟨27, _⟩ => ⟨S_, .f32⟩
  | .hbm, ⟨28, _⟩ => ⟨S350000, .f32⟩
  | .hbm, ⟨29, _⟩ => ⟨S350000x1, .i32⟩
  | .hbm, ⟨30, _⟩ => ⟨S350000, .f32⟩
  | .hbm, ⟨31, _⟩ => ⟨S_, .f32⟩
  | .hbm, ⟨32, _⟩ => ⟨S350000, .f32⟩
  | .hbm, ⟨33, _⟩ => ⟨S350000, .f32⟩
  | .hbm, ⟨34, _⟩ => ⟨S350000x1, .f32⟩
  | .hbm, ⟨35, _⟩ => ⟨S350000x256, .f32⟩
  | .hbm, ⟨36, _⟩ => ⟨S350000x256, .f32⟩
  | .hbm, ⟨37, _⟩ => ⟨S50000x1792, .f32⟩
  | .hbm, ⟨38, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  slices_S2x350000_S1x350000_0_0 : S2x350000.Slices ![0, 0] S1x350000
  shapeCasts_S1x350000_S350000 : S1x350000.ShapeCasts S350000
  slices_S2x350000_S1x350000_1_0 : S2x350000.Slices ![1, 0] S1x350000
  bcast_S_S350000 : S_.BroadcastsInDim S350000 (![] : Fin 0 → Fin S350000.rank)
  bcast_S350000_S350000x1_0 : S350000.BroadcastsInDim S350000x1 (![0] : Fin 1 → Fin S350000x1.rank)
  bcast_S_S350000x256 : S_.BroadcastsInDim S350000x256 (![] : Fin 0 → Fin S350000x256.rank)
  bcast_S350000x1_S350000x256_0_1 : S350000x1.BroadcastsInDim S350000x256 (![0, 1] : Fin 2 → Fin S350000x256.rank)
  shapeCasts_S350000x256_S50000x1792 : S350000x256.ShapeCasts S50000x1792
  gather_S50000x256_S350000x1_S350000x256_1_0_n_n_0_1_1256_wf : GatherDims.WF S50000x256 S350000x1 S350000x256 [1] [0] [] [0] [] 1 ![1, 256]
  scatter_S350000x256_S350000x1_S350000x256_1_0_0_1_wf : ScatterDims.WF S350000x256 S350000x1 S350000x256 [1] [0] [0] 1
  scatter_S350000_S350000x1_S350000_n_0_0_1_wf : ScatterDims.WF S350000 S350000x1 S350000 [] [0] [0] 1
  dot_S50000x1792_S1792x256_S50000x256_1_0_0_1_n_n_wf : DotDims.WF S50000x1792 S1792x256 S50000x256 [1] [0] [0] [1] [] []

variable [Facts₀]

def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S350000x256_S350000x1_S350000x256_1_0_0_1 : ScatterDims S350000x256 S350000x1 S350000x256 where
  updateWindowDims := [1]
  insertedWindowDims := [0]
  scatterDimsToOperandDims := [0]
  indexVectorDim := 1
  wf := scatter_S350000x256_S350000x1_S350000x256_1_0_0_1_wf
def scatter_S350000_S350000x1_S350000_n_0_0_1 : ScatterDims S350000 S350000x1 S350000 where
  updateWindowDims := []
  insertedWindowDims := [0]
  scatterDimsToOperandDims := [0]
  indexVectorDim := 1
  wf := scatter_S350000_S350000x1_S350000_n_0_0_1_wf
def dot_S50000x1792_S1792x256_S50000x256_1_0_0_1_n_n : DotDims S50000x1792 S1792x256 S50000x256 where
  lhsContracting := [1]
  rhsContracting := [0]
  lhsNonContracting := [0]
  rhsNonContracting := [1]
  lhsBatch := []
  rhsBatch := []
  wf := dot_S50000x1792_S1792x256_S50000x256_1_0_0_1_n_n_wf

class Facts : Prop extends Facts₀ where

variable [Facts]
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.Product.lean ====
/-
  The product of a 50000 × 1792 matrix with a 1792 × 256 matrix on the extended reals, entry by entry:
  entry (p, j) is the sum over the 1792 inner positions q of a (p, q) · w (q, j).

  Two programs compute it.  One multiplies the whole matrices at once.  The other cuts the left factor into
  25 blocks of 2000 rows and multiplies each block with the whole right factor, starting from a zero
  accumulator; row p of block t is row 2000 · t + p of the whole matrix, and an entry of a product depends
  on one row of the left factor and one column of the right factor only, so each block's product is the
  corresponding 2000 rows of the whole product.  No law of arithmetic is needed beyond reading both
  products as the same sum: nothing is re-associated, and no finiteness is used.
-/
import proofs.«125236_j15487652069473_1_alg».proof.Proof.LibPlainDot

noncomputable section

namespace Cert.Product

open Idealize.ShloMosaic Idealize.ShloMosaic.ValueIdx

/-- Entry `(p, j)` of `a · w`: the sum over the inner positions `q` of `a (p, q) · w (q, j)`. -/
def prod (a : (⟨2, ![50000, 1792]⟩ : Shape).Idx → EReal) (w : (⟨2, ![1792, 256]⟩ : Shape).Idx → EReal) :
    (⟨2, ![50000, 256]⟩ : Shape).Idx → EReal :=
  fun i => ∑ q : Fin 1792, a (ix2 (n0 := 50000) (i 0) q) * w (ix2 (n1 := 256) q (i 1))

/-- `prod` at an entry written by its row and column. -/
theorem prod_ix2 (a : (⟨2, ![50000, 1792]⟩ : Shape).Idx → EReal) (w : (⟨2, ![1792, 256]⟩ : Shape).Idx → EReal)
    (r : Fin 50000) (j : Fin 256) : prod a w (ix2 r j) = ∑ q : Fin 1792, a (ix2 r q) * w (ix2 q j) := rfl

/-- The product of the whole matrices in one step is `prod`. -/
theorem dotGeneral_eq (D : DotDims ⟨2, ![50000, 1792]⟩ ⟨2, ![1792, 256]⟩ ⟨2, ![50000, 256]⟩)
    (hD : D = DotDims.plain 50000 1792 256)
    (a : FVec Ideal ⟨2, ![50000, 1792]⟩ .f32) (w : FVec Ideal ⟨2, ![1792, 256]⟩ .f32) :
    Host.dotGeneral D none a w = prod a w := by
  funext i
  obtain ⟨r, j, rfl⟩ : ∃ (r : Fin 50000) (j : Fin 256), i = ix2 r j := ⟨i 0, i 1, eq_ix2 i⟩
  exact Cert.PlainDot.dotGeneral_ix2 D hD none a w r j

/-- One block of 2000 rows times the whole right factor, accumulated from zero: entry `(p, j)` of the block's
    product is entry `(r, j)` of the whole product, when row `p` of the block is row `r` of the left factor and the
    block's right factor is the whole one. -/
theorem block_eq (D : DotDims ⟨2, ![2000, 1792]⟩ ⟨2, ![1792, 256]⟩ ⟨2, ![2000, 256]⟩)
    (hD : D = DotDims.plain 2000 1792 256)
    (a : (⟨2, ![50000, 1792]⟩ : Shape).Idx → EReal) (w : (⟨2, ![1792, 256]⟩ : Shape).Idx → EReal)
    (x : FVec Ideal ⟨2, ![2000, 1792]⟩ .bf16) (y : FVec Ideal ⟨2, ![1792, 256]⟩ .bf16)
    (r : Fin 50000) (p : Fin 2000) (j : Fin 256)
    (hx : ∀ q : Fin 1792, x (ix2 p q) = a (ix2 r q)) (hy : ∀ q : Fin 1792, y (ix2 q j) = w (ix2 q j)) :
    matmul D none x y (constant (F := Ideal) ⟨2, ![2000, 256]⟩ .f32 0x00000000#32) (ix2 p j) = prod a w (ix2 r j) := by
  refine (Cert.PlainDot.matmul_zero_ix2 D hD none x y p j).trans ?_
  rw [prod_ix2]
  exact Finset.sum_congr rfl fun q _ => by rw [hx q, hy q]

end Cert.Product

end
-- ==== Proof.HostPrefix.lean ====
/-
  What the matrix product is applied to.  Both programs first form, from the node features, the edge list
  and the edge types, the mean of the source features over the edges of each (target node, edge type) pair
  — a gather of rows, a sum of the gathered rows and a count of the edges per pair, the quotient of the sum
  by the count clamped below by one — and lay the 350000 × 256 means out as a 50000 × 1792 matrix, seven
  means side by side per node.  The two programs spell this with the same operations in the same order on
  the same literals, so it is carried here as ONE function `means` of the three arguments and never opened.

  The first program then rounds the means and the weights to a narrower float format before its product;
  on the extended reals a change of format is the identity.
-/
import proofs.«125236_j15487652069473_1_alg».proof.Proof.Gen.KernelIdeal.Frame
import proofs.«125236_j15487652069473_1_alg».proof.Proof.Gen.ReferenceIdeal.Read
import Idealize.ShloMosaic.Lib.StableHlo.Run

noncomputable section

namespace Cert.KernelIdeal.Prefix

open Cert.KernelIdeal Cert.KernelIdeal.Gen Idealize.ShloMosaic Idealize.ShloMosaic.TcCoe Idealize.SL.Sem Idealize.ShloMosaic.StableHlo

variable {F : FTy → Type} [FloatOps F]

/-- The means per (target node, edge type), as a 50000 × 1792 matrix, from the node features `x0`, the edge
    list `x1` and the edge types `x2`. -/
def means (x0 : (⟨S50000x256, .f32⟩ : BufTy).Contents (Elt F)) (x1 : (⟨S2x350000, .i32⟩ : BufTy).Contents (Elt F))
    (x2 : (⟨S350000, .i32⟩ : BufTy).Contents (Elt F)) : (⟨S50000x1792, .f32⟩ : BufTy).Contents (Elt F) :=
  shapeCast _ (Host.divf (Host.scatterAdd scatter_S350000x256_S350000x1_S350000x256_1_0_0_1 (broadcastInDim S350000x256 ![] bcast_S_S350000x256 (constant S_ .f32 0x00000000#32)) (broadcastInDim S350000x1 ![0] bcast_S350000_S350000x1_0 (addi (muli (shapeCast _ (extractStridedSlice S1x350000 ![0, 0] (x1) slices_S2x350000_S1x350000_0_0) shapeCasts_S1x350000_S350000) (broadcastInDim S350000 ![] bcast_S_S350000 (constantI S_ 32 7#32))) (x2))) (Host.gather gather_S50000x256_S350000x1_S350000x256_1_0_n_n_0_1_1256 (x0) (broadcastInDim S350000x1 ![0] bcast_S350000_S350000x1_0 (select (cmpi .slt (shapeCast _ (extractStridedSlice S1x350000 ![1, 0] (x1) slices_S2x350000_S1x350000_1_0) shapeCasts_S1x350000_S350000) (broadcastInDim S350000 ![] bcast_S_S350000 (constantI S_ 32 0#32))) (addi (shapeCast _ (extractStridedSlice S1x350000 ![1, 0] (x1) slices_S2x350000_S1x350000_1_0) shapeCasts_S1x350000_S350000) (broadcastInDim S350000 ![] bcast_S_S350000 (constantI S_ 32 50000#32))) (shapeCast _ (extractStridedSlice S1x350000 ![1, 0] (x1) slices_S2x350000_S1x350000_1_0) shapeCasts_S1x350000_S350000))))) (broadcastInDim S350000x256 ![0, 1] bcast_S350000x1_S350000x256_0_1 (broadcastInDim S350000x1 ![0] bcast_S350000_S350000x1_0 (maximumf (Host.scatterAdd scatter_S350000_S350000x1_S350000_n_0_0_1 (broadcastInDim S350000 ![] bcast_S_S350000 (constant S_ .f32 0x00000000#32)) (broadcastInDim S350000x1 ![0] bcast_S350000_S350000x1_0 (addi (muli (shapeCast _ (extractStridedSlice S1x350000 ![0, 0] (x1) slices_S2x350000_S1x350000_0_0) shapeCasts_S1x350000_S350000) (broadcastInDim S350000 ![] bcast_S_S350000 (constantI S_ 32 7#32))) (x2))) (broadcastInDim S350000 ![] bcast_S_S350000 (constant S_ .f32 0x3F800000#32))) (broadcastInDim S350000 ![] bcast_S_S350000 (constant S_ .f32 0x3F800000#32)))))) shapeCasts_S350000x256_S50000x1792

variable (m : (ℓ : Loc nD τ sig) → Buf (Elt F) ℓ)

/-- The left factor as the product finds it: the means, in the narrower format. -/
theorem left_eq (c : Dev nD) :
    V m c main_v27 = ((truncf .bf16 (means (F := F) (m ((c : Thread nD τ).loc main_arg0)) (m ((c : Thread nD τ).loc main_arg1))
      (m ((c : Thread nD τ).loc main_arg2))) bitsLt_bf16_f32 : (⟨S50000x1792, .bf16⟩ : BufTy).Contents (Elt F))) := by
  dsimp only [V, hostOps0]
  after_results_simp <;> rfl

/-- The right factor as the product finds it: the weights, in the narrower format. -/
theorem right_eq (c : Dev nD) :
    V m c main_v28 = ((truncf .bf16 (m ((c : Thread nD τ).loc main_arg3)) bitsLt_bf16_f32 : (⟨S1792x256, .bf16⟩ : BufTy).Contents (Elt F))) := by
  dsimp only [V, hostOps0]
  after_results_simp <;> rfl

/-- On the extended reals a change of float format is the identity (stated for any vector, so that the
    vector it is used at is never looked into). -/
theorem narrow_ideal {s : Shape} (x : FVec Ideal s .f32) (h : FTy.bits .bf16 < FTy.bits .f32) :
    (truncf .bf16 x h : s.Idx → EReal) = x := funext fun _ => rfl

/-- On the extended reals the left factor is the means themselves: the change of format is the identity. -/
theorem left_ideal (m : (ℓ : Loc nD τ sig) → Buf (Elt Ideal) ℓ) (c : Dev nD) :
    (V m c main_v27 : S50000x1792.Idx → EReal) = means (F := Ideal) (m ((c : Thread nD τ).loc main_arg0))
      (m ((c : Thread nD τ).loc main_arg1)) (m ((c : Thread nD τ).loc main_arg2)) :=
  (left_eq m c).trans (narrow_ideal _ _)

/-- On the extended reals the right factor is the weights themselves. -/
theorem right_ideal (m : (ℓ : Loc nD τ sig) → Buf (Elt Ideal) ℓ) (c : Dev nD) :
    (V m c main_v28 : S1792x256.Idx → EReal) = m ((c : Thread nD τ).loc main_arg3) :=
  (right_eq m c).trans (narrow_ideal _ _)

/-! The second program's dimension records for the gather and the two sums are the first program's: the same
    numbers, each stated with its own program's side conditions. -/

theorem gather_eq : gather_S50000x256_S350000x1_S350000x256_1_0_n_n_0_1_1256
    = Cert.ReferenceIdeal.gather_S50000x256_S350000x1_S350000x256_1_0_n_n_0_1_1256 := rfl
theorem scatter_rows_eq : scatter_S350000x256_S350000x1_S350000x256_1_0_0_1
    = Cert.ReferenceIdeal.scatter_S350000x256_S350000x1_S350000x256_1_0_0_1 := rfl
theorem scatter_counts_eq : scatter_S350000_S350000x1_S350000_n_0_0_1
    = Cert.ReferenceIdeal.scatter_S350000_S350000x1_S350000_n_0_0_1 := rfl

/-- The second program's left factor is the same function of the arguments. -/
theorem means_eq (x0 : (⟨S50000x256, .f32⟩ : BufTy).Contents (Elt F)) (x1 : (⟨S2x350000, .i32⟩ : BufTy).Contents (Elt F))
    (x2 : (⟨S350000, .i32⟩ : BufTy).Contents (Elt F)) :
    means (F := F) x0 x1 x2 = Cert.ReferenceIdeal.Read.val_main_v26 (F := F) x0 x1 x2 := by
  unfold means
  rw [gather_eq, scatter_rows_eq, scatter_counts_eq]
  rfl

end Cert.KernelIdeal.Prefix

end
-- ==== Proof.KernelBlocks.lean ====
/-
  The first program's result array, from its 25 blocks.  Grid point t multiplies rows 2000 · t … 2000 · t + 1999
  of the left factor (all 1792 columns) with the whole right factor, from a zero accumulator, and writes the
  2000 × 256 result back as rows 2000 · t … 2000 · t + 1999 of the output.  An entry (p, j) of that block
  product is the sum over q of left (2000 · t + p, q) · right (q, j): entry (2000 · t + p, j) of the product of the
  whole matrices.  Row r of the output lies in the block of point r / 2000, so the 25 blocks cover the
  output, and the array the run leaves is the whole product of the two factors as the region found them.
-/
import proofs.«125236_j15487652069473_1_alg».proof.Proof.Gen.KernelIdeal.Value
import proofs.«125236_j15487652069473_1_alg».proof.Proof.Product
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.Product (prod)

variable (m : (ℓ : Loc nD τ sig) → Buf (Elt Ideal) ℓ) (ρ : Dev nD → PrngReg)

/-- The body's loads and its store start at the corner of their buffers. -/
theorem corner : (![0, 0] : Fin 2 → Nat) = fun _ => 0 := funext fun a => by fin_cases a <;> rfl

/-- The value the body stores, at entry `(p, j)`: entry `(r, j)` of the whole product, when row `p` of the loaded left
    block is row `r` of the left factor and the loaded right block is the right factor. -/
theorem stored_apply (a : S50000x1792.Idx → EReal) (w : S1792x256.Idx → EReal)
    (x0 : Vec Ideal S2000x1792 .bf16) (x1 : Vec Ideal S1792x256 .bf16) (r : Fin 50000) (p : Fin 2000) (j : Fin 256)
    (hx : ∀ q : Fin 1792, x0 (ix2 p q) = a (ix2 r q)) (hy : ∀ q : Fin 1792, x1 (ix2 q j) = w (ix2 q j)) :
    k0_pay1 x0 x1 (ix2 p j) = prod a w (ix2 r j) := by
  unfold k0_pay1
  simp only [shapeCast_self]
  exact Cert.Product.block_eq _ rfl a w x0 x1 r p j hx hy

/-- The printed index maps over the 25 grid points: the left factor's and the output's block move down with the point,
    the right factor's stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two factors as the region found them. -/
theorem flushed_eq (c : Dev nD) (t : Fin cfg0.N) :
    (dats m 0 c).flushed 2 t = ((cfg0.win 2).blk t).view.read (Elt Ideal) (prod (V m c main_v27) (V m c main_v28)) := by
  rw [Cert.KernelIdeal.Value.flushed2]
  unfold out0_2
  rw [View.canon_unit_zero corner]
  simp only [View.ld_unit_zero (S := S2000x1792) corner, View.ld_unit_zero (S := S1792x256) corner]
  obtain ⟨e00, e01, e10, e11, e20, e21⟩ := index_facts t
  have ht : t.val < 25 := Nat.lt_of_lt_of_eq t.isLt N_0
  funext y
  obtain ⟨p, j, rfl⟩ : ∃ (p : Fin 2000) (j : Fin 256), y = ix2 p j := ⟨y 0, y 1, eq_ix2 y⟩
  have hp : p.val < 2000 := p.isLt
  have hr : t.val * 2000 + p.val < 50000 := by omega
  show k0_pay1 (iblk m c 0 t) (iblk m c 1 t) (ix2 p j)
    = prod (V m c main_v27) (V m c main_v28) (((cfg0.win 2).blk t).view.emb (ix2 p j))
  refine (stored_apply (V m c main_v27) (V m c main_v28) (iblk m c 0 t) (iblk m c 1 t) ⟨t.val * 2000 + p.val, hr⟩ p j ?_ ?_).trans ?_
  · intro q
    show V m c main_v27 (((cfg0.win 0).blk t).view.emb (ix2 p q)) = V m c main_v27 (ix2 ⟨t.val * 2000 + p.val, hr⟩ q)
    refine congrArg (V m c main_v27) (funext fun a => Fin.ext ?_)
    match a with
    | ⟨0, _⟩ => show win0_0.index t (0 : Fin 2) * 2000 + 1 * p.val = t.val * 2000 + p.val; omega
    | ⟨1, _⟩ => show win0_0.index t (1 : Fin 2) * 1792 + 1 * q.val = q.val; omega
  · intro q
    show V m c main_v28 (((cfg0.win 1).blk t).view.emb (ix2 q j)) = V m c main_v28 (ix2 q j)
    refine congrArg (V m c main_v28) (funext fun a => Fin.ext ?_)
    match a with
    | ⟨0, _⟩ => show win0_1.index t (0 : Fin 2) * 1792 + 1 * q.val = q.val; omega
    | ⟨1, _⟩ => show win0_1.index t (1 : Fin 2) * 256 + 1 * j.val = j.val; omega
  · refine congrArg (prod (V m c main_v27) (V m c main_v28)) (funext fun a => Fin.ext ?_)
    match a with
    | ⟨0, _⟩ => show t.val * 2000 + p.val = win0_2.index t (0 : Fin 2) * 2000 + 1 * p.val; omega
    | ⟨1, _⟩ => show j.val = win0_2.index t (1 : Fin 2) * 256 + 1 * j.val; omega

/-- An index of the output is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v29).slice (win0_2.rect t)).set ↔ _
  rw [View.set_slice_whole, Rect.mem_set_unit]
  exact Iff.rfl

/-- Every index of the output is in the block of the point its row divided by 2000 names. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hlt : (i 0).val / 2000 < cfg0.N := by rw [show cfg0.N = 25 from N_0]; omega
  obtain ⟨-, -, -, -, e20, e21⟩ := index_facts ⟨(i 0).val / 2000, hlt⟩
  have e20' : win0_2.index ⟨(i 0).val / 2000, hlt⟩ (0 : Fin 2) = (i 0).val / 2000 := e20
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    omega
  | ⟨1, _⟩ =>
    show win0_2.index ⟨(i 0).val / 2000, hlt⟩ (1 : Fin 2) * 256 ≤ (i 1).val
      ∧ (i 1).val < win0_2.index ⟨(i 0).val / 2000, hlt⟩ (1 : Fin 2) * 256 + 256
    omega

/-- The output array after the run: the product of the two factors as the region found them. -/
theorem final (c : Dev nD) : (dats m 0 c).arrAt 2 cfg0.N = prod (V m c main_v27) (V m c main_v28) :=
  (dats m 0 c).arrAt_eq_of_cover 2 (prod (V m c main_v27) (V m c main_v28)) (fun t _ => flushed_eq m c t) cover

/-- The run, with the result named. -/
theorem run : θ_run defs (onTc (τ := τ) (main (F := Ideal))) ⟨m, fun _ => 0, ρ⟩ fun r => ∀ c : Dev nD,
      r.2.mem ((c : Thread nD τ).loc main_v29) = prod (V m c main_v27) (V m c main_v28)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Blocks

end
-- ==== Proof.lean ====
/-
  A graph convolution with typed edges: for every (target node, edge type) pair the mean of the source nodes'
  features over the pair's edges, the seven means of a node laid side by side as one row of 1792 numbers, and
  that 50000 × 1792 matrix multiplied with a 1792 × 256 weight matrix.

  The two programs form the means with the same operations (Proof/HostPrefix.lean carries them as one
  function, never opened).  They differ in the product only.  The first rounds both factors to a narrower
  float format — the identity on the extended reals — and multiplies 25 blocks of 2000 rows of the means, each
  with the whole weight matrix and from a zero accumulator, writing each block of the result in its place
  (Proof/KernelBlocks.lean).  The second multiplies the whole matrices once.  On the extended reals both
  give, at entry (r, j), the sum over q of means (r, q) · weights (q, j) (Proof/Product.lean): an entry of a
  product depends on one row of the left factor, so cutting the left factor into blocks of rows changes
  nothing; no sum is re-ordered and no finiteness of the inputs is used.

  The first program's word-level form is its own idealization: the idealizing pass rewrote nothing, so
  that claim is trivial.  The three frame claims are the generated frames and the reference's generated run.
-/
import proofs.«125236_j15487652069473_1_alg».proof.Defs
import proofs.«125236_j15487652069473_1_alg».proof.Proof.Gen.Kernel
import proofs.«125236_j15487652069473_1_alg».proof.Proof.Gen.Kernel.Skeleton
import proofs.«125236_j15487652069473_1_alg».proof.Proof.Gen.Kernel.Launch
import proofs.«125236_j15487652069473_1_alg».proof.Proof.Gen.Kernel.Points
import proofs.«125236_j15487652069473_1_alg».proof.Proof.Gen.Kernel.Frame
import proofs.«125236_j15487652069473_1_alg».proof.Proof.Gen.KernelIdeal
import proofs.«125236_j15487652069473_1_alg».proof.Proof.Gen.KernelIdeal.Skeleton
import proofs.«125236_j15487652069473_1_alg».proof.Proof.Gen.KernelIdeal.Launch
import proofs.«125236_j15487652069473_1_alg».proof.Proof.Gen.KernelIdeal.Points
import proofs.«125236_j15487652069473_1_alg».proof.Proof.Gen.KernelIdeal.Frame
import proofs.«125236_j15487652069473_1_alg».proof.Proof.Gen.ReferenceIdeal
import proofs.«125236_j15487652069473_1_alg».proof.Proof.Gen.Pre_finite_inputs
import proofs.«125236_j15487652069473_1_alg».proof.Proof.Gen.KernelIdeal.Value
import proofs.«125236_j15487652069473_1_alg».proof.Proof.Gen.ReferenceIdeal.Run
import proofs.«125236_j15487652069473_1_alg».proof.Proof.Gen.ReferenceIdeal.Read
import proofs.«125236_j15487652069473_1_alg».proof.Proof.Product
import proofs.«125236_j15487652069473_1_alg».proof.Proof.HostPrefix
import proofs.«125236_j15487652069473_1_alg».proof.Proof.KernelBlocks
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealizing pass rewrote no operation. -/
theorem preserves : Cert.preserves_Kernel_KernelIdeal := trivial

/-- Both programs end with the product of the means with the weights: the first block by block over the
    factors in the narrower format, the second in one step. -/
theorem algebraic : Cert.algebraic_KernelIdeal_ReferenceIdeal := by
  intro m ρ m' ρ' _ hagree
  refine ⟨fun c => Cert.Product.prod
      (Cert.KernelIdeal.Prefix.means (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Blocks.run m ρ)
    rw [Cert.KernelIdeal.Prefix.left_ideal, Cert.KernelIdeal.Prefix.right_ideal]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v27_eq]
    unfold Cert.ReferenceIdeal.Read.val_main_v27
    rw [(hagree c).1, (hagree c).2.1, (hagree c).2.2.1, (hagree c).2.2.2]
    refine (Cert.Product.dotGeneral_eq Cert.ReferenceIdeal.dot_S50000x1792_S1792x256_S50000x256_1_0_0_1_n_n rfl _ _).trans ?_
    rw [← Cert.KernelIdeal.Prefix.means_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
